-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel

variable [Facts]

def fn {F : FTy → Type} [FloatOps F] (main_arg0 : FVec F S32x512x1024 .f32) (main_arg1 : FVec F S32x512x1024 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S32x512x1024 .f32 := Host.absf main_arg1
  let main_cst_0 : FVec F S_ .f32 := constant S_ .f32 0x7F800000#32
  let main_v5 : FVec F S32x512x1024 .f32 := broadcastInDim S32x512x1024 ![] bcast_S_S32x512x1024 main_cst_0
  let main_v6 : IVec S32x512x1024 1 := cmpf .olt main_v4 main_v5
  let main_c_1 : IVec S_ 1 := constantI S_ 1 1#1
  let main_v7 : IVec S_ 1 := (fun x v => Host.reduce IntOp.andi x v reducesTo_S32x512x1024_S_d0_1_2 h_S_) main_v6 main_c_1
  let main_v8 : IVec S_ 1 := andi main_v3 main_v7
  main_v8
-- ==== Kernel.lean ====
abbrev S32x512x1024 : Shape := ⟨3, ![32, 512, 1024]⟩
abbrev S32x512x512 : Shape := ⟨3, ![32, 512, 512]⟩
abbrev S4x512x1024 : Shape := ⟨3, ![4, 512, 1024]⟩
abbrev S4x512x512 : Shape := ⟨3, ![4, 512, 512]⟩
abbrev S4x512 : Shape := ⟨2, ![4, 512]⟩
abbrev S4x512x1 : Shape := ⟨3, ![4, 512, 1]⟩
abbrev S4x1x512 : Shape := ⟨3, ![4, 1, 512]⟩

abbrev nBuf : Space → Nat
  | .hbm => 3
  | .vmem => 6
  | .smem => 0
  | _ => 0

abbrev bufTy : (tb : Table) → Fin (tcTables nBuf tb) → BufTy
  | .hbm, ⟨0, _⟩ => ⟨S32x512x1024, .f32⟩
  | .hbm, ⟨1, _⟩ => ⟨S32x512x1024, .f32⟩
  | .hbm, ⟨2, _⟩ => ⟨S32x512x512, .f32⟩
  | .local _ .vmem, ⟨0, _⟩ => ⟨S4x512x1024, .f32⟩
  | .local _ .vmem, ⟨1, _⟩ => ⟨S4x512x1024, .f32⟩
  | .local _ .vmem, ⟨2, _⟩ => ⟨S4x512x1024, .f32⟩
  | .local _ .vmem, ⟨3, _⟩ => ⟨S4x512x1024, .f32⟩
  | .local _ .vmem, ⟨4, _⟩ => ⟨S4x512x512, .f32⟩
  | .local _ .vmem, ⟨5, _⟩ => ⟨S4x512x512, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4x512x1024_S4x512x1024_0_0_0 : ∀ a, (![0, 0, 0] : Fin 3 → Nat) a + S4x512x1024.size a ≤ S4x512x1024.size a
  h_S4x512x1024 : 0 < S4x512x1024.numel
  reduces_S4x512x1024_S4x512 : S4x512x1024.Reduces [2] S4x512
  shapeCasts_S4x512_S4x512x1 : S4x512.ShapeCasts S4x512x1
  shapeCasts_S4x512_S4x1x512 : S4x512.ShapeCasts S4x1x512
  broadcasts_S4x512x1_S4x512x512 : S4x512x1.Broadcasts S4x512x512
  broadcasts_S4x1x512_S4x512x512 : S4x1x512.Broadcasts S4x512x512
  inb_S4x512x512_S4x512x512_0_0_0 : ∀ a, (![0, 0, 0] : Fin 3 → Nat) a + S4x512x512.size a ≤ S4x512x512.size a
  h_S4x512x512 : 0 < S4x512x512.numel
  dot_S4x512x1024_S4x512x1024_S4x512x512_2_2_1_1_0_0_wf : DotDims.WF S4x512x1024 S4x512x1024 S4x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x1024.size a ≤ S32x512x1024.size a
  hwx0_0 : ∀ i : grid0.Coords, EltTy.bits .f32 = 32 ∨ (Rect.block (s := S32x512x1024) S4x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x1024.size a ≤ S32x512x1024.size a
  hwx0_1 : ∀ i : grid0.Coords, EltTy.bits .f32 = 32 ∨ (Rect.block (s := S32x512x1024) S4x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512x512.size a ≤ S32x512x512.size a
  hwx0_2 : ∀ i : grid0.Coords, EltTy.bits .f32 = 32 ∨ (Rect.block (s := S32x512x512) S4x512x512.size (cc0_transform_2 i) (hinb0_2 i)).WholeWords (EltTy.packing .f32)

variable [Facts₀]

def dot_S4x512x1024_S4x512x1024_S4x512x512_2_2_1_1_0_0 : DotDims S4x512x1024 S4x512x1024 S4x512x512 where
  lhsContracting := [2]
  rhsContracting := [2]
  lhsNonContracting := [1]
  rhsNonContracting := [1]
  lhsBatch := [0]
  rhsBatch := [0]
  wf := dot_S4x512x1024_S4x512x1024_S4x512x512_2_2_1_1_0_0_wf

abbrev win0_0 : Pipeline.Window sig grid0 :=
  Pipeline.Window.ofSpec (Memref.whole main_arg0) S4x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x512x1024 : Shape := ⟨3, ![32, 512, 1024]⟩
abbrev S32x512x512 : Shape := ⟨3, ![32, 512, 512]⟩
abbrev S_ : Shape := ⟨0, ![]⟩
abbrev S32x512 : Shape := ⟨2, ![32, 512]⟩
abbrev S32x512x1 : Shape := ⟨3, ![32, 512, 1]⟩
abbrev S32x1x512 : Shape := ⟨3, ![32, 1, 512]⟩

abbrev nBuf : Space → Nat
  | .hbm => 26
  | .vmem => 0
  | .smem => 0
  | _ => 0

abbrev bufTy : (tb : Table) → Fin (tcTables nBuf tb) → BufTy
  | .hbm, ⟨0, _⟩ => ⟨S32x512x1024, .f32⟩
  | .hbm, ⟨1, _⟩ => ⟨S32x512x1024, .f32⟩
  | .hbm, ⟨2, _⟩ => ⟨S32x512x512, .f32⟩
  | .hbm, ⟨3, _⟩ => ⟨S32x512x1024, .f32⟩
  | .hbm, ⟨4, _⟩ => ⟨S_, .f32⟩
  | .hbm, ⟨5, _⟩ => ⟨S32x512, .f32⟩
  | .hbm, ⟨6, _⟩ => ⟨S32x512, .f32⟩
  | .hbm, ⟨7, _⟩ => ⟨S32x512x1024, .f32⟩
  | .hbm, ⟨8, _⟩ => ⟨S_, .f32⟩
  | .hbm, ⟨9, _⟩ => ⟨S32x512, .f32⟩
  | .hbm, ⟨10, _⟩ => ⟨S32x512, .f32⟩
  | .hbm, ⟨11, _⟩ => ⟨S32x512x1, .f32⟩
  | .hbm, ⟨12, _⟩ => ⟨S32x1x512, .f32⟩
  | .hbm, ⟨13, _⟩ => ⟨S32x512x512, .f32⟩
  | .hbm, ⟨14, _⟩ => ⟨S32x512x512, .f32⟩
  | .hbm, ⟨15, _⟩ => ⟨S32x512x512, .f32⟩
  | .hbm, ⟨16, _⟩ => ⟨S_, .f32⟩
  | .hbm, ⟨17, _⟩ => ⟨S32x512x512, .f32⟩
  | .hbm, ⟨18, _⟩ => ⟨S32x512x512, .f32⟩
  | .hbm, ⟨19, _⟩ => ⟨S32x512x512, .f32⟩
  | .hbm, ⟨20, _⟩ => ⟨S_, .f32⟩
  | .hbm, ⟨21, _⟩ => ⟨S32x512x512, .f32⟩
  | .hbm, ⟨22, _⟩ => ⟨S32x512x512, .f32⟩
  | .hbm, ⟨23, _⟩ => ⟨S_, .f32⟩
  | .hbm, ⟨24, _⟩ => ⟨S32x512x512, .f32⟩
  | .hbm, ⟨25, _⟩ => ⟨S32x512x512, .f32⟩
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v1 : Ref sig .tc := ⟨.hbm, 6, rfl⟩
abbrev main_call1_v0 : Ref sig .tc := ⟨.hbm, 7, rfl⟩
abbrev main_call1_cst : Ref sig .tc := ⟨.hbm, 8, rfl⟩
abbrev main_call1_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]

class Facts₀ : Prop where
  reducesTo_S32x512x1024_S32x512_d2 : S32x512x1024.ReducesTo [2] S32x512
  h_S_ : 0 < S_.numel
  bcast_S32x512_S32x512x1_0_1 : S32x512.BroadcastsInDim S32x512x1 (![0, 1] : Fin 2 → Fin S32x512x1.rank)
  bcast_S32x512_S32x1x512_0_2 : S32x512.BroadcastsInDim S32x1x512 (![0, 2] : Fin 2 → Fin S32x1x512.rank)
  bcast_S32x512x1_S32x512x512_0_1_2 : S32x512x1.BroadcastsInDim S32x512x512 (![0, 1, 2] : Fin 3 → Fin S32x512x512.rank)
  bcast_S32x1x512_S32x512x512_0_1_2 : S32x1x512.BroadcastsInDim S32x512x512 (![0, 1, 2] : Fin 3 → Fin S32x512x512.rank)
  bcast_S_S32x512x512 : S_.BroadcastsInDim S32x512x512 (![] : Fin 0 → Fin S32x512x512.rank)
  dot_S32x512x1024_S32x512x1024_S32x512x512_2_2_1_1_0_0_wf : DotDims.WF S32x512x1024 S32x512x1024 S32x512x512 [2] [2] [1] [1] [0] [0]

variable [Facts₀]

def dot_S32x512x1024_S32x512x1024_S32x512x512_2_2_1_1_0_0 : DotDims S32x512x1024 S32x512x1024 S32x512x512 where
  lhsContracting := [2]
  rhsContracting := [2]
  lhsNonContracting := [1]
  rhsNonContracting := [1]
  lhsBatch := [0]
  rhsBatch := [0]
  wf := dot_S32x512x1024_S32x512x1024_S32x512x512_2_2_1_1_0_0_wf

class Facts : Prop extends Facts₀ where

variable [Facts]
-- ==== Proof.CosineSpec.lean ====
/-
  Pairwise cosine similarity of two stacks of row vectors, mapped from [-1, 1] to [0, 1].

  For a batch `b`, a target row `t` and a support row `s` (each row a vector of 1024 extended reals):

      sim b t s = ( ⟨tgt b t, sup b s⟩ / max (‖tgt b t‖ · ‖sup b s‖) ε  +  1 ) · ½

  where ⟨·,·⟩ is the sum of the 1024 products, ‖u‖ is the square root of the sum of the 1024 squares, and ε, 1, ½ are
  the values of three fixed single-precision words (kept as words: the same words stand on both sides, so they are never
  evaluated). Everything is over the extended reals with the exact operations; no finiteness of the inputs is used
  anywhere: both programs compute this very expression, in the same order of operands, and differ only in how they lay
  the intermediate vectors out and in how many batches they treat at once.

  The number of batches `B` is a parameter, so that the same definition reads a block of 4 batches and the whole array
  of 32; `sim_of_rows` says that the value at a batch depends only on that batch's rows.
-/
import Idealize.ShloMosaic.PureOps.Ideal
import Idealize.ShloMosaic.Lib.ValueIdx

noncomputable section

namespace Cert.PairCosine

open Idealize.ShloMosaic Idealize.ShloMosaic.ValueIdx

/-- A stack of `B` matrices of 512 rows of length 1024. -/
abbrev Rows (B : Nat) : Shape := ⟨3, ![B, 512, 1024]⟩
/-- A stack of `B` tables, one entry per pair (target row, support row). -/
abbrev Pairs (B : Nat) : Shape := ⟨3, ![B, 512, 512]⟩

/-- The inner product of row `p` of `u` and row `q` of `v`, in batch `b`. -/
def dot {B : Nat} (u v : (Rows B).Idx → EReal) (b : Fin B) (p q : Fin 512) : EReal :=
  ∑ k : Fin 1024, u (ix3 b p k) * v (ix3 b q k)

/-- The Euclidean length of row `p` of `u`, in batch `b`. -/
def norm {B : Nat} (u : (Rows B).Idx → EReal) (b : Fin B) (p : Fin 512) : EReal :=
  Ideal.sqrt (∑ k : Fin 1024, u (ix3 b p k) * u (ix3 b p k))

/-- The similarity of target row `t` and support row `s` in batch `b`: the cosine with its denominator clamped from
    below by ε, then the affine map x ↦ (x + 1) · ½. -/
def sim {B : Nat} (sup tgt : (Rows B).Idx → EReal) (b : Fin B) (t s : Fin 512) : EReal :=
  (Ideal.div (dot tgt sup b t s) (max (norm tgt b t * norm sup b s) (Ideal.ofBits .f32 0x2EDBE6FF#32))
      + Ideal.ofBits .f32 0x3F800000#32) * Ideal.ofBits .f32 0x3F000000#32

/-- The whole table of similarities as one function of the two stacks. -/
def simArr {B : Nat} (sup tgt : (Rows B).Idx → EReal) : (Pairs B).Idx → EReal :=
  fun i => sim sup tgt (i 0) (i 1) (i 2)

/-- The similarity at a batch reads only that batch's rows: if batch `b'` of `sup'`, `tgt'` holds the rows of batch `b` of
    `sup`, `tgt`, the similarities agree. (A block of batches cut out of the whole array is such a pair.) -/
theorem sim_of_rows {B B' : Nat} (sup tgt : (Rows B).Idx → EReal) (sup' tgt' : (Rows B').Idx → EReal)
    (b : Fin B) (b' : Fin B')
    (hs : ∀ (r : Fin 512) (k : Fin 1024), sup' (ix3 b' r k) = sup (ix3 b r k))
    (ht : ∀ (r : Fin 512) (k : Fin 1024), tgt' (ix3 b' r k) = tgt (ix3 b r k)) (t s : Fin 512) :
    sim sup' tgt' b' t s = sim sup tgt b t s := by
  unfold sim dot norm
  simp only [hs, ht]

end Cert.PairCosine

end
-- ==== Proof.LibKeepdims3.lean ====
/-
  Rank-3 "keepdims" layout steps read at an index, and the sum over the last axis of a rank-3 vector.

  A reduction of a stack of matrices over its last axis leaves one number per (batch, row). To combine two such
  families into a table indexed by (batch, row of the first, row of the second), a program re-lays the first as a
  column, [a, b] → [a, b, 1], and spreads it along a new last axis, [a, b, 1] → [a, b, c]; the second as a row,
  [a, c] → [a, 1, c], spread along a new middle axis, [a, 1, c] → [a, b, c]. Read at the index (p, q, r) of the table,
  the first chain gives the reduced value at (p, q) and the second the one at (p, r). Each step below is stated for
  arbitrary extents and any element type; the unit coordinate is an arbitrary `z : Fin 1`.

  `sqrt_apply`: the square root of a vector read at an index. `multiReduction_add_last_apply`: on the extended reals, the sum over the last axis read at (p, q) is the plain
  `Fin`-indexed sum of the entries (p, q, k).
-/
import Idealize.ShloMosaic.PureOps.Ideal.Laws
import Idealize.ShloMosaic.Lib.Pipeline.Value
import Idealize.ShloMosaic.Lib.ValueIdx

noncomputable section

namespace Cert.LibKeepdims3

open Idealize.ShloMosaic Idealize.ShloMosaic.ValueIdx

section Layout
variable {α : Type} {a b c : Nat}

/-- A family indexed by (p, q) re-laid as a column: the entry (p, q, z) of the cast is the entry (p, q). -/
theorem shapeCast_col_apply (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) :=
  shapeCast_apply x h _ _ (by
    rw [Shape.rowMajor_val_two, Shape.rowMajor_val_three]
    show p.val * b + q.val = (p.val * b + q.val) * 1 + z.val
    rw [Fin.val_eq_zero z, Nat.mul_one, Nat.add_zero])

/-- A family indexed by (p, r) re-laid as a row: the entry (p, z, r) of the cast is the entry (p, r). -/
theorem shapeCast_row_apply (x : (⟨2, ![a, c]⟩ : Shape).Idx → α)
    (h : (⟨2, ![a, c]⟩ : Shape).ShapeCasts ⟨3, ![a, 1, c]⟩) (p : Fin a) (r : Fin c) (z : Fin 1) :
    shapeCast ⟨3, ![a, 1, c]⟩ x h (ix3 p z r) = x (ix2 p r) :=
  shapeCast_apply x h _ _ (by
    rw [Shape.rowMajor_val_two, Shape.rowMajor_val_three]
    show p.val * c + r.val = (p.val * 1 + z.val) * c + r.val
    rw [Fin.val_eq_zero z, Nat.mul_one, Nat.add_zero])

/-- A column spread along a new last axis: the entry (p, q, r) is the column's entry (p, q, z). -/
theorem broadcastTo_col_apply (x : (⟨3, ![a, b, 1]⟩ : Shape).Idx → α)
    (h : (⟨3, ![a, b, 1]⟩ : Shape).Broadcasts ⟨3, ![a, b, c]⟩) (p : Fin a) (q : Fin b) (r : Fin c) (z : Fin 1) :
    broadcastTo ⟨3, ![a, b, c]⟩ x h (ix3 p q r) = x (ix3 p q z) :=
  broadcastTo_apply x h _ _ (fun ax => match ax with
    | ⟨0, _⟩ => by
        show p.val = if a = 1 then 0 else p.val
        have := p.isLt; split <;> omega
    | ⟨1, _⟩ => by
        show q.val = if b = 1 then 0 else q.val
        have := q.isLt; split <;> omega
    | ⟨2, _⟩ => by
        show z.val = if (1 : Nat) = 1 then 0 else r.val
        rw [if_pos rfl]; exact Fin.val_eq_zero z)

/-- A row spread along a new middle axis: the entry (p, q, r) is the row's entry (p, z, r). -/
theorem broadcastTo_row_apply (x : (⟨3, ![a, 1, c]⟩ : Shape).Idx → α)
    (h : (⟨3, ![a, 1, c]⟩ : Shape).Broadcasts ⟨3, ![a, b, c]⟩) (p : Fin a) (q : Fin b) (r : Fin c) (z : Fin 1) :
    broadcastTo ⟨3, ![a, b, c]⟩ x h (ix3 p q r) = x (ix3 p z r) :=
  broadcastTo_apply x h _ _ (fun ax => match ax with
    | ⟨0, _⟩ => by
        show p.val = if a = 1 then 0 else p.val
        have := p.isLt; split <;> omega
    | ⟨1, _⟩ => by
        show z.val = if (1 : Nat) = 1 then 0 else q.val
        rw [if_pos rfl]; exact Fin.val_eq_zero z
    | ⟨2, _⟩ => by
        show r.val = if c = 1 then 0 else r.val
        have := r.isLt; split <;> omega)

end Layout

/-- The square root of a vector of extended reals, read at an index, is the square root of the entry. -/
theorem sqrt_apply {s : Shape} {φ : FTy} (v : FVec Ideal s φ) (i : s.Idx) : sqrt v i = Ideal.sqrt (v i) := rfl

/-- On the extended reals the sum of a rank-3 vector over its last axis, read at (p, q), is the sum over `k` of the
    entries (p, q, k): no initial value is left (the accumulator word is the neutral one) and no order. -/
theorem multiReduction_add_last_apply {a b c : Nat} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (funext fun ax => Fin.ext (by
      match ax with
      | ⟨0, _⟩ => rfl
      | ⟨1, _⟩ => rfl
      | ⟨2, _⟩ => rfl)))

/-- The same for single precision with the zero word as accumulator, the side conditions spelt as a printed program
    spells them (the accumulator's neutrality as the equation of the zero word with itself). -/
theorem multiReduction_add_last_f32_apply {a b c : Nat} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (p : Fin a) (q : Fin b) :
    multiReduction .add [2] ⟨2, ![a, b]⟩ src 0x00000000#32 h hφ hacc (ix2 p q) = ∑ k : Fin c, src (ix3 p q k) :=
  multiReduction_add_last_apply src 0x00000000#32 h hφ hacc p q

end Cert.LibKeepdims3

end
-- ==== Proof.BlockSim.lean ====
/-
  The kernel's body on one block of 4 batches: its one stored value, read at the index (b, t, s), is the
  similarity `sim` of the block's two stacks of rows at batch `b`, target row `t`, support row `s`.

  The body forms the table of inner products by one matrix product (contracting the rows' last axes, batch by batch,
  into a zero accumulator), the two families of squared lengths by sums over the last axis, re-lays the target lengths
  as a column and the support lengths as a row, spreads both over the table, multiplies, clamps from below, divides, and
  applies x ↦ (x + 1) · ½. Read at one index, every step is the corresponding step of `sim`.
-/
import proofs.«161256_j38233798869505_2_alg».proof.Proof.Gen.KernelIdeal.Skeleton
import proofs.«161256_j38233798869505_2_alg».proof.Proof.CosineSpec
import proofs.«161256_j38233798869505_2_alg».proof.Proof.LibKeepdims3
import Idealize.ShloMosaic.PureOps.Ideal.Laws
import Idealize.ShloMosaic.Lib.ValueIdx
import Idealize.ShloMosaic.Lib.Pipeline.Value

noncomputable section

namespace Cert.KernelIdeal.BlockValue

open Cert.KernelIdeal Cert.KernelIdeal.Gen Idealize.ShloMosaic Idealize.ShloMosaic.ValueIdx Cert.PairCosine Cert.LibKeepdims3

/-! ## The matrix product's operand indices

At an output index `j` = (batch, target row, support row) and a contraction index `q` (one coordinate), the left operand
is read at (j 0, j 1, q) and the right operand at (j 0, j 2, q): the batch axis is shared, each operand keeps its own
row axis, and both last axes are contracted. -/

theorem lhs_ax0 (j : S4x512x512.Idx) (q : dot_S4x512x1024_S4x512x1024_S4x512x512_2_2_1_1_0_0.contr.Idx) : (dot_S4x512x1024_S4x512x1024_S4x512x512_2_2_1_1_0_0.lhsIdx j q 0).val = (j 0).val := by
  unfold DotDims.lhsIdx
  rw [dif_pos (show (0 : Fin S4x512x1024.rank) ∈ dot_S4x512x1024_S4x512x1024_S4x512x512_2_2_1_1_0_0.lhsBatch by decide)]
  rfl
theorem lhs_ax1 (j : S4x512x512.Idx) (q : dot_S4x512x1024_S4x512x1024_S4x512x512_2_2_1_1_0_0.contr.Idx) : (dot_S4x512x1024_S4x512x1024_S4x512x512_2_2_1_1_0_0.lhsIdx j q 1).val = (j 1).val := by
  unfold DotDims.lhsIdx
  rw [dif_neg (show ¬(1 : Fin S4x512x1024.rank) ∈ dot_S4x512x1024_S4x512x1024_S4x512x512_2_2_1_1_0_0.lhsBatch by decide), dif_pos (show (1 : Fin S4x512x1024.rank) ∈ dot_S4x512x1024_S4x512x1024_S4x512x512_2_2_1_1_0_0.lhsNonContracting by decide)]
  rfl
theorem lhs_ax2 (j : S4x512x512.Idx) (q : dot_S4x512x1024_S4x512x1024_S4x512x512_2_2_1_1_0_0.contr.Idx) : (dot_S4x512x1024_S4x512x1024_S4x512x512_2_2_1_1_0_0.lhsIdx j q 2).val = (q ⟨0, by decide⟩).val :=
  dot_S4x512x1024_S4x512x1024_S4x512x512_2_2_1_1_0_0.lhsIdx_val_of_single rfl j q
theorem rhs_ax0 (j : S4x512x512.Idx) (q : dot_S4x512x1024_S4x512x1024_S4x512x512_2_2_1_1_0_0.contr.Idx) : (dot_S4x512x1024_S4x512x1024_S4x512x512_2_2_1_1_0_0.rhsIdx j q 0).val = (j 0).val := by
  unfold DotDims.rhsIdx
  rw [dif_pos (show (0 : Fin S4x512x1024.rank) ∈ dot_S4x512x1024_S4x512x1024_S4x512x512_2_2_1_1_0_0.rhsBatch by decide)]
  rfl
theorem rhs_ax1 (j : S4x512x512.Idx) (q : dot_S4x512x1024_S4x512x1024_S4x512x512_2_2_1_1_0_0.contr.Idx) : (dot_S4x512x1024_S4x512x1024_S4x512x512_2_2_1_1_0_0.rhsIdx j q 1).val = (j 2).val := by
  unfold DotDims.rhsIdx
  rw [dif_neg (show ¬(1 : Fin S4x512x1024.rank) ∈ dot_S4x512x1024_S4x512x1024_S4x512x512_2_2_1_1_0_0.rhsBatch by decide), dif_pos (show (1 : Fin S4x512x1024.rank) ∈ dot_S4x512x1024_S4x512x1024_S4x512x512_2_2_1_1_0_0.rhsNonContracting by decide)]
  rfl
theorem rhs_ax2 (j : S4x512x512.Idx) (q : dot_S4x512x1024_S4x512x1024_S4x512x512_2_2_1_1_0_0.contr.Idx) : (dot_S4x512x1024_S4x512x1024_S4x512x512_2_2_1_1_0_0.rhsIdx j q 2).val = (q ⟨0, by decide⟩).val :=
  dot_S4x512x1024_S4x512x1024_S4x512x512_2_2_1_1_0_0.rhsIdx_val_of_single rfl j q

/-- The matrix product of the body, into the zero accumulator, read at (b, t, s): the inner product of row `t` of the
    left operand and row `s` of the right operand, in batch `b`. -/
theorem matmul_rows_apply (l r : FVec Ideal S4x512x1024 .f32) (b : Fin 4) (t s : Fin 512) :
    matmul (F := Ideal) dot_S4x512x1024_S4x512x1024_S4x512x512_2_2_1_1_0_0 none l r (constant S4x512x512 .f32 0x00000000#32) (ix3 b t s)
      = ∑ k : Fin 1024, l (ix3 b t k) * r (ix3 b s k) := by
  simp only [matmul]
  rw [Ideal.matmul_constant_zero_apply, ← Equiv.sum_comp (contrEquiv1 dot_S4x512x1024_S4x512x1024_S4x512x512_2_2_1_1_0_0 1024 rfl rfl).symm]
  refine Finset.sum_congr rfl fun k _ => ?_
  have hk := contrEquiv1_symm_val dot_S4x512x1024_S4x512x1024_S4x512x512_2_2_1_1_0_0 1024 rfl rfl k
  have el : dot_S4x512x1024_S4x512x1024_S4x512x512_2_2_1_1_0_0.lhsIdx (ix3 b t s) ((contrEquiv1 dot_S4x512x1024_S4x512x1024_S4x512x512_2_2_1_1_0_0 1024 rfl rfl).symm k) = ix3 b t k := funext fun a => Fin.ext (by
    match a with
    | ⟨0, _⟩ => exact lhs_ax0 _ _
    | ⟨1, _⟩ => exact lhs_ax1 _ _
    | ⟨2, _⟩ => exact (lhs_ax2 _ _).trans hk)
  have er : dot_S4x512x1024_S4x512x1024_S4x512x512_2_2_1_1_0_0.rhsIdx (ix3 b t s) ((contrEquiv1 dot_S4x512x1024_S4x512x1024_S4x512x512_2_2_1_1_0_0 1024 rfl rfl).symm k) = ix3 b s k := funext fun a => Fin.ext (by
    match a with
    | ⟨0, _⟩ => exact rhs_ax0 _ _
    | ⟨1, _⟩ => exact rhs_ax1 _ _
    | ⟨2, _⟩ => exact (rhs_ax2 _ _).trans hk)
  rw [el, er]

/-! ## The stored value at an index -/

/-- The body's stored value at (b, t, s) is the similarity of the block's rows. `x0` is the block of the supports,
    `x1` the block of the targets: the inner products come from the matrix product, each length from the square root of
    a last-axis sum of squares, carried to the table's index through its column (targets) or row (supports) layout. -/
theorem pay_apply (x0 x1 : Vec Ideal S4x512x1024 .f32) (b : Fin 4) (t s : Fin 512) :
    k0_pay1 (F := Ideal) x0 x1 (ix3 b t s) = sim (B := 4) x0 x1 b t s := by
  unfold k0_pay1
  simp only [mulf_apply, addf_apply, divf_apply, maximumf_apply, broadcast_apply]
  rw [matmul_rows_apply, broadcastTo_col_apply _ _ b t s 0, broadcastTo_row_apply _ _ b t s 0, sqrt_apply,
    shapeCast_col_apply _ _ b t 0, shapeCast_row_apply _ _ b s 0, sqrt_apply,
    multiReduction_add_last_f32_apply, multiReduction_add_last_f32_apply]
  rfl

end Cert.KernelIdeal.BlockValue

end
-- ==== Proof.SimArray.lean ====
/-
  From blocks to the array: after the run, the kernel's result array is the table of similarities `simArr` of the two
  argument arrays.

  The grid has 8 points; point `n` stages batches 4n … 4n+3 of the supports and of the targets (whole in the two other
  axes) and writes back batches 4n … 4n+3 of the result. What it writes is the body's stored value on its two input
  blocks; by `pay_apply` that is the similarity of the blocks' rows, and since a batch's similarities read only that
  batch's rows (`sim_of_rows`) it is the block of `simArr` of the whole arrays. The 8 blocks cover the result (batch `q`
  lies in the block of point `q / 4`), so the array ends holding `simArr`.
-/
import proofs.«161256_j38233798869505_2_alg».proof.Proof.Gen.KernelIdeal.Value
import proofs.«161256_j38233798869505_2_alg».proof.Proof.BlockSim
import proofs.«161256_j38233798869505_2_alg».proof.Proof.CosineSpec
import Idealize.ShloMosaic.Lib.Pipeline.Value
import Idealize.ShloMosaic.Lib.ValueIdx

noncomputable section

namespace Cert.KernelIdeal.ArrayValue

open Cert.KernelIdeal Cert.KernelIdeal.Gen Cert.KernelIdeal.BlockValue Idealize.ShloMosaic Idealize.ShloMosaic.TcCoe Idealize.SL.Sem
open Idealize.ShloMosaic.ValueIdx Cert.PairCosine
open Idealize.ShloMosaic.Pipeline (Dat)

variable (m : (ℓ : Loc nD τ sig) → Buf (Elt Ideal) ℓ) (ρ : Dev nD → PrngReg)

theorem zero_offsets : (![0, 0, 0] : Fin 3 → Nat) = fun _ => 0 := funext fun a => by fin_cases a <;> rfl

/-- The three index maps over the grid: at every point the two inputs' blocks sit at the output block's batch position, and
    every window has a single block along its two other axes. -/
theorem block_indices : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (1 : Fin 3) = 0 ∧ win0_2.index t (2 : Fin 3) = 0 :=
  (by decide +kernel : ∀ t : Fin grid0.N, _)

/-- Every one of the 8 batch positions is some point's. -/
theorem block_onto : ∀ q : Fin 8, ∃ t : Fin cfg0.N, win0_2.index t = ![q.val, 0, 0] :=
  (by decide +kernel : ∀ q : Fin 8, ∃ t : Fin grid0.N, win0_2.index t = ![q.val, 0, 0])

/-- One block against the whole arrays. If `x0`, `x1` hold batches 4n … 4n+3 of `A0`, `A1` (an entry of the block is the
    entry of the array 4n batches further, same row, same position), the body's stored value at a block index `y` is
    `simArr A0 A1` at the array index 4n batches further. -/
theorem block_is_sim (A0 A1 : S32x512x1024.Idx → EReal) (x0 x1 : Vec Ideal S4x512x1024 .f32) (n : Nat)
    (h0 : ∀ (z : S4x512x1024.Idx) (z' : S32x512x1024.Idx), (z' 0).val = n * 4 + (z 0).val → (z' 1).val = (z 1).val →
      (z' 2).val = (z 2).val → x0 z = A0 z')
    (h1 : ∀ (z : S4x512x1024.Idx) (z' : S32x512x1024.Idx), (z' 0).val = n * 4 + (z 0).val → (z' 1).val = (z 1).val →
      (z' 2).val = (z 2).val → x1 z = A1 z')
    (y : S4x512x512.Idx) (i : S32x512x512.Idx) (hi0 : (i 0).val = n * 4 + (y 0).val) (hi1 : (i 1).val = (y 1).val)
    (hi2 : (i 2).val = (y 2).val) :
    k0_pay1 (F := Ideal) x0 x1 y = simArr (B := 32) A0 A1 i := by
  obtain ⟨b, t, s, rfl⟩ : ∃ (b : Fin 4) (t s : Fin 512), y = ix3 b t s := ⟨y 0, y 1, y 2, eq_ix3 y⟩
  obtain ⟨b', t', s', rfl⟩ : ∃ (b' : Fin 32) (t' s' : Fin 512), i = ix3 b' t' s' := ⟨i 0, i 1, i 2, eq_ix3 i⟩
  have ht : t' = t := Fin.ext hi1
  have hs : s' = s := Fin.ext hi2
  subst ht hs
  rw [pay_apply]
  show sim (B := 4) x0 x1 b t' s' = sim (B := 32) A0 A1 b' t' s'
  exact sim_of_rows A0 A1 x0 x1 b' b (fun r k => h0 (ix3 b r k) (ix3 b' r k) hi0 rfl rfl)
    (fun r k => h1 (ix3 b r k) (ix3 b' r k) hi0 rfl rfl) t' s'

/-- What point `t` writes back is block `t` of `simArr` of the argument arrays as the region finds them. -/
theorem flushed_is_sim (c : Dev nD) (t : Fin cfg0.N) :
    (dats m 0 c).flushed 2 t
      = ((cfg0.win 2).blk t).view.read (Elt Ideal) (simArr (B := 32) (V m c main_arg0) (V m c main_arg1)) := by
  rw [Value.flushed2]
  unfold out0_2
  rw [View.canon_unit_zero zero_offsets]
  simp only [View.ld_unit_zero (S := S4x512x1024) zero_offsets]
  obtain ⟨e00, e01, e02, e10, e11, e12, e21, e22⟩ := block_indices t
  funext y
  show k0_pay1 (F := Ideal) (iblk m c 0 t) (iblk m c 1 t) y
    = simArr (B := 32) (V m c main_arg0) (V m c main_arg1) (((cfg0.win 2).blk t).view.emb y)
  refine block_is_sim (V m c main_arg0) (V m c main_arg1) (iblk m c 0 t) (iblk m c 1 t) (win0_2.index t (0 : Fin 3))
    ?_ ?_ y (((cfg0.win 2).blk t).view.emb y) ?_ ?_ ?_
  · intro z z' hz0 hz1 hz2
    show V m c main_arg0 (((cfg0.win 0).blk t).view.emb z) = V m c main_arg0 z'
    refine congrArg _ (funext fun a => Fin.ext ?_)
    match a with
    | ⟨0, _⟩ => show win0_0.index t (0 : Fin 3) * 4 + 1 * (z 0).val = (z' 0).val; omega
    | ⟨1, _⟩ => show win0_0.index t (1 : Fin 3) * 512 + 1 * (z 1).val = (z' 1).val; omega
    | ⟨2, _⟩ => show win0_0.index t (2 : Fin 3) * 1024 + 1 * (z 2).val = (z' 2).val; omega
  · intro z z' hz0 hz1 hz2
    show V m c main_arg1 (((cfg0.win 1).blk t).view.emb z) = V m c main_arg1 z'
    refine congrArg _ (funext fun a => Fin.ext ?_)
    match a with
    | ⟨0, _⟩ => show win0_1.index t (0 : Fin 3) * 4 + 1 * (z 0).val = (z' 0).val; omega
    | ⟨1, _⟩ => show win0_1.index t (1 : Fin 3) * 512 + 1 * (z 1).val = (z' 1).val; omega
    | ⟨2, _⟩ => show win0_1.index t (2 : Fin 3) * 1024 + 1 * (z 2).val = (z' 2).val; omega
  · show win0_2.index t (0 : Fin 3) * 4 + 1 * (y 0).val = win0_2.index t (0 : Fin 3) * 4 + (y 0).val; omega
  · show win0_2.index t (1 : Fin 3) * 512 + 1 * (y 1).val = (y 1).val; omega
  · show win0_2.index t (2 : Fin 3) * 512 + 1 * (y 2).val = (y 2).val; omega

/-- An index of the result is in point `t`'s block iff each coordinate is in the block's range on its axis. -/
theorem mem_block (t : Fin cfg0.N) (i : S32x512x512.Idx) :
    i ∈ ((cfg0.win 2).blk t).view.set ↔ ∀ a : Fin 3, win0_2.index t a * S4x512x512.size a ≤ (i a).val
      ∧ (i a).val < win0_2.index t a * S4x512x512.size a + S4x512x512.size a := by
  show i ∈ ((View.whole main_v0).slice (win0_2.rect t)).set ↔ _
  rw [View.set_slice_whole, Rect.mem_set_unit]
  exact Iff.rfl

/-- The blocks cover the result: the index with batch `q` is in the block of the point at batch position `q / 4`. -/
theorem covered (i : S32x512x512.Idx) :
    ∃ t : Fin cfg0.N, (cfg0.win 2).flush t = true ∧ i ∈ ((cfg0.win 2).blk t).view.set := by
  have hi0 : (i 0).val < 32 := (i 0).isLt
  have hi1 : (i 1).val < 512 := (i 1).isLt
  have hi2 : (i 2).val < 512 := (i 2).isLt
  obtain ⟨t, ht⟩ := block_onto ⟨(i 0).val / 4, by omega⟩
  have q0 : win0_2.index t (0 : Fin 3) = (i 0).val / 4 := congrFun ht 0
  have q1 : win0_2.index t (1 : Fin 3) = 0 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 512 ≤ (i 1).val ∧ (i 1).val < win0_2.index t (1 : Fin 3) * 512 + 512; omega
  | ⟨2, _⟩ => show win0_2.index t (2 : Fin 3) * 512 ≤ (i 2).val ∧ (i 2).val < win0_2.index t (2 : Fin 3) * 512 + 512; omega

/-- The result array after the run is `simArr` of the argument arrays. -/
theorem final_is_sim (c : Dev nD) :
    (dats m 0 c).arrAt 2 cfg0.N
      = simArr (B := 32) (m ((c : Thread nD τ).loc main_arg0)) (m ((c : Thread nD τ).loc main_arg1)) :=
  (dats m 0 c).arrAt_eq_of_cover 2 (simArr (B := 32) (V m c main_arg0) (V m c main_arg1))
    (fun t _ => flushed_is_sim m c t) covered

/-- The kernel's run with its result named: every weakly fair execution terminates with the result array at `simArr` of
    the arguments and the arguments unchanged. -/
theorem run : θ_run defs (onTc (τ := τ) (main (F := Ideal))) ⟨m, fun _ => 0, ρ⟩ fun r => ∀ c : Dev nD,
      r.2.mem ((c : Thread nD τ).loc main_v0)
        = simArr (B := 32) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_is_sim m c), (h c).2⟩) (Value.run_blocks m ρ)

end Cert.KernelIdeal.ArrayValue

end
-- ==== Proof.RefSim.lean ====
/-
  The reference's result, as the generated stage-by-stage reading gives it, is the table of similarities `simArr` of
  the whole argument arrays (argument 0 the supports, argument 1 the targets).

  Read at the index (b, t, s): the last stage is a product with ½ of a sum with 1 of a quotient; the numerator is the
  host's batched contraction, a sum over `k` of target entry (b, t, k) times support entry (b, s, k); the denominator
  is the larger of ε and the product of two lengths, each the square root of zero plus a sum of squares over `k`,
  brought to the table's index through a column (targets) or a row (supports) of broadcasts. The only arithmetic
  step is that the zero the sums start from is the additive unit.
-/
import proofs.«161256_j38233798869505_2_alg».proof.Proof.Gen.ReferenceIdeal.Read
import proofs.«161256_j38233798869505_2_alg».proof.Proof.CosineSpec
import Idealize.ShloMosaic.PureOps.Ideal.Laws
import Idealize.ShloMosaic.Lib.ValueIdx

noncomputable section

namespace Cert.ReferenceIdeal.RefValue

open Cert.ReferenceIdeal Cert.ReferenceIdeal.Read Idealize.ShloMosaic Idealize.ShloMosaic.ValueIdx Cert.PairCosine

/-- The reference's last stage is `simArr` of the two argument arrays. -/
theorem ref_is_sim (x0 x1 : (⟨S32x512x1024, .f32⟩ : BufTy).Contents (Elt Ideal)) :
    val_main_v14 (F := Ideal) x0 x1 = simArr (B := 32) x0 x1 := by
  funext i
  obtain ⟨b, t, s, rfl⟩ : ∃ (b : Fin 32) (t s : Fin 512), i = ix3 b t s := ⟨i 0, i 1, i 2, eq_ix3 i⟩
  -- where each operand of the contraction and of the two sums of squares is read
  have e1 : ∀ k : Fin 1024, lidx_main_v0 (ix3 b t s) k = ix3 b t k := fun k => funext fun a => Fin.ext (by
    match a with | ⟨0, _⟩ => rfl | ⟨1, _⟩ => rfl | ⟨2, _⟩ => rfl)
  have e2 : ∀ k : Fin 1024, ridx_main_v0 (ix3 b t s) k = ix3 b s k := fun k => funext fun a => Fin.ext (by
    match a with | ⟨0, _⟩ => rfl | ⟨1, _⟩ => rfl | ⟨2, _⟩ => rfl)
  have e3 : ∀ k : Fin 1024, idx_main_call0_v1 (idx_main_v3 (idx_main_v5 (ix3 b t s))) k = ix3 b t k := fun k =>
    funext fun a => Fin.ext (by match a with | ⟨0, _⟩ => rfl | ⟨1, _⟩ => rfl | ⟨2, _⟩ => rfl)
  have e4 : ∀ k : Fin 1024, idx_main_call1_v1 (idx_main_v4 (idx_main_v6 (ix3 b t s))) k = ix3 b s k := fun k =>
    funext fun a => Fin.ext (by match a with | ⟨0, _⟩ => rfl | ⟨1, _⟩ => rfl | ⟨2, _⟩ => rfl)
  rw [val_main_v14_apply, val_main_v12_apply, val_main_v10_apply, val_main_v0_apply, val_main_v9_apply, val_main_v7_apply,
    val_main_v5_apply, val_main_v3_apply, val_main_v1_apply, val_main_call0_v1_apply,
    val_main_v6_apply, val_main_v4_apply, val_main_v2_apply, val_main_call1_v1_apply,
    val_main_v8_apply, val_main_v11_apply, val_main_v13_apply]
  simp only [val_main_call0_v0_apply, val_main_call1_v0_apply, val_main_call0_cst_apply, val_main_call1_cst_apply,
    val_main_cst_apply, val_main_cst_0_apply, val_main_cst_1_apply, e1, e2, e3, e4,
    Ideal.ofBits_def, Ideal.ofBits_zero_f32, zero_add]
  rfl

end Cert.ReferenceIdeal.RefValue

end
-- ==== Proof.lean ====
/-
  Pairwise cosine similarity, batch by batch: a kernel that treats 4 batches per grid point against the plain
  whole-array formula.

  Both programs take supports [32, 512, 1024] and targets [32, 512, 1024] and return, for every batch `b`, target row
  `t` and support row `s`,

      ( ⟨tgt b t, sup b s⟩ / max (‖tgt b t‖ · ‖sup b s‖) ε  +  1 ) · ½ ,

  with the same three single-precision words for ε, 1 and ½ and the same order of the operands in every product. Over
  the extended reals with exact operations the two results are therefore equal entry by entry, with no appeal to any
  algebraic law beyond 0 + x = x (the reference's sums start from a zero, the kernel's do not) and with no use of the
  finiteness of the inputs: what differs is only the layout of the intermediate vectors and the cut into blocks of 4
  batches, and a batch's similarities read only that batch's rows.

  `CosineSpec` states the formula (`simArr`); `BlockSim` reads the kernel body's stored value at an index as that
  formula on a block; `SimArray` carries it from the 8 blocks to the whole result array; `RefSim` reads the
  reference's stages as the same formula on the whole arrays. The three frames are the generated ones (the
  reference's is its generated run with the result dropped); the idealization rewrote nothing, so its claim is `True`.
-/
import proofs.«161256_j38233798869505_2_alg».proof.Defs
import proofs.«161256_j38233798869505_2_alg».proof.Proof.Gen.Kernel
import proofs.«161256_j38233798869505_2_alg».proof.Proof.Gen.Kernel.Skeleton
import proofs.«161256_j38233798869505_2_alg».proof.Proof.Gen.Kernel.Launch
import proofs.«161256_j38233798869505_2_alg».proof.Proof.Gen.Kernel.Points
import proofs.«161256_j38233798869505_2_alg».proof.Proof.Gen.Kernel.Frame
import proofs.«161256_j38233798869505_2_alg».proof.Proof.Gen.KernelIdeal
import proofs.«161256_j38233798869505_2_alg».proof.Proof.Gen.KernelIdeal.Skeleton
import proofs.«161256_j38233798869505_2_alg».proof.Proof.Gen.KernelIdeal.Launch
import proofs.«161256_j38233798869505_2_alg».proof.Proof.Gen.KernelIdeal.Points
import proofs.«161256_j38233798869505_2_alg».proof.Proof.Gen.KernelIdeal.Frame
import proofs.«161256_j38233798869505_2_alg».proof.Proof.Gen.ReferenceIdeal
import proofs.«161256_j38233798869505_2_alg».proof.Proof.Gen.Pre_finite_inputs
import proofs.«161256_j38233798869505_2_alg».proof.Proof.Gen.KernelIdeal.Value
import proofs.«161256_j38233798869505_2_alg».proof.Proof.Gen.ReferenceIdeal.Run
import proofs.«161256_j38233798869505_2_alg».proof.Proof.Gen.ReferenceIdeal.Read
import proofs.«161256_j38233798869505_2_alg».proof.Proof.CosineSpec
import proofs.«161256_j38233798869505_2_alg».proof.Proof.SimArray
import proofs.«161256_j38233798869505_2_alg».proof.Proof.RefSim
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as they were: its run, with the statement about the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the two arguments, both programs end with the table of similarities of those
    arguments: the kernel by its 8 blocks, the reference by its stages. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.ref_is_sim, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
